-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S50000x128 : Shape := ⟨2, ![50000, 128]⟩
abbrev S5000 : Shape := ⟨1, ![5000]⟩
abbrev S500 : Shape := ⟨1, ![500]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : IVec S2x1600000 32) (main_arg1 : FVec F S1600000 .f32) (main_arg2 : FVec F S50000x128 .f32) (main_arg3 : IVec S5000 32) (main_arg4 : IVec S500 32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  main_v8
-- ==== Kernel.lean ====
abbrev S2x1600000 : Shape := ⟨2, ![2, 1600000]⟩
abbrev S1600000 : Shape := ⟨1, ![1600000]⟩
abbrev S50000x128 : Shape := ⟨2, ![50000, 128]⟩
abbrev S5000 : Shape := ⟨1, ![5000]⟩
abbrev S500 : Shape := ⟨1, ![500]⟩
abbrev S_ : Shape := ⟨0, ![]⟩
abbrev S50000 : Shape := ⟨1, ![50000]⟩
abbrev S500x1 : Shape := ⟨2, ![500, 1]⟩
abbrev S5000x1 : Shape := ⟨2, ![5000, 1]⟩
abbrev S1x1600000 : Shape := ⟨2, ![1, 1600000]⟩
abbrev S1600000x1 : Shape := ⟨2, ![1600000, 1]⟩
abbrev S1600000x128 : Shape := ⟨2, ![1600000, 128]⟩
abbrev S1x1 : Shape := ⟨2, ![1, 1]⟩
abbrev S8000x128 : Shape := ⟨2, ![8000, 128]⟩
abbrev S8000x1 : Shape := ⟨2, ![8000, 1]⟩
abbrev S8000 : Shape := ⟨1, ![8000]⟩
abbrev S1 : Shape := ⟨1, ![1]⟩

abbrev nBuf : Space → Nat
  | .hbm => 100
  | .vmem => 8
  | .smem => 0
  | _ => 0

abbrev bufTy : (tb : Table) → Fin (tcTables nBuf tb) → BufTy
  | .hbm, ⟨0, _⟩ => ⟨S2x1600000, .i32⟩
  | .hbm, ⟨1, _⟩ => ⟨S1600000, .f32⟩
  | .hbm, ⟨2, _⟩ => ⟨S50000x128, .f32⟩
  | .hbm, ⟨3, _⟩ => ⟨S5000, .i32⟩
  | .hbm, ⟨4, _⟩ => ⟨S500, .i32⟩
  | .hbm, ⟨5, _⟩ => ⟨S_, .i1⟩
  | .hbm, ⟨6, _⟩ => ⟨S50000, .i1⟩
  | .hbm, ⟨7, _⟩ => ⟨S_, .i32⟩
  | .hbm, ⟨8, _⟩ => ⟨S500, .i32⟩
  | .hbm, ⟨9, _⟩ => ⟨S500, .i1⟩
  | .hbm, ⟨10, _⟩ => ⟨S_, .i32⟩
  | .hbm, ⟨11, _⟩ => ⟨S500, .i32⟩
  | .hbm, ⟨12, _⟩ => ⟨S500, .i32⟩
  | .hbm, ⟨13, _⟩ => ⟨S500, .i32⟩
  | .hbm, ⟨14, _⟩ => ⟨S500x1, .i32⟩
  | .hbm, ⟨15, _⟩ => ⟨S_, .i1⟩
  | .hbm, ⟨16, _⟩ => ⟨S500, .i1⟩
  | .hbm, ⟨17, _⟩ => ⟨S50000, .i1⟩
  | .hbm, ⟨18, _⟩ => ⟨S_, .i1⟩
  | .hbm, ⟨19, _⟩ => ⟨S50000, .i1⟩
  | .hbm, ⟨20, _⟩ => ⟨S_, .i32⟩
  | .hbm, ⟨21, _⟩ => ⟨S5000, .i32⟩
  | .hbm, ⟨22, _⟩ => ⟨S5000, .i1⟩
  | .hbm, ⟨23, _⟩ => ⟨S_, .i32⟩
  | .hbm, ⟨24, _⟩ => ⟨S5000, .i32⟩
  | .hbm, ⟨25, _⟩ => ⟨S5000, .i32⟩
  | .hbm, ⟨26, _⟩ => ⟨S5000, .i32⟩
  | .hbm, ⟨27, _⟩ => ⟨S5000x1, .i32⟩
  | .hbm, ⟨28, _⟩ => ⟨S_, .i1⟩
  | .hbm, ⟨29, _⟩ => ⟨S5000, .i1⟩
  | .hbm, ⟨30, _⟩ => ⟨S50000, .i1⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .i1⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000, .i1⟩
  | .hbm, ⟨72, _⟩ => ⟨S1600000, .i1⟩
  | .hbm, ⟨73, _⟩ => ⟨S1600000, .i1⟩
  | .hbm, ⟨74, _⟩ => ⟨S_, .f32⟩
  | .hbm, ⟨75, _⟩ => ⟨S1600000, .f32⟩
  | .hbm, ⟨76, _⟩ => ⟨S1600000, .i1⟩
  | .hbm, ⟨77, _⟩ => ⟨S1600000, .i1⟩
  | .hbm, ⟨78, _⟩ => ⟨S1600000, .f32⟩
  | .hbm, ⟨79, _⟩ => ⟨S1600000x1, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S1x1, .f32⟩
  | .hbm, ⟨99, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | .local _ .vmem, ⟨6, _⟩ => ⟨S1x1, .f32⟩
  | .local _ .vmem, ⟨7, _⟩ => ⟨S1x1, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_13 : Ref sig .tc := ⟨.hbm, 63, rfl⟩
abbrev main_v44 : Ref sig .tc := ⟨.hbm, 64, rfl⟩
abbrev main_v45 : Ref sig .tc := ⟨.hbm, 65, rfl⟩
abbrev main_c_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_15 : Ref sig .tc := ⟨.hbm, 80, rfl⟩
abbrev main_v58 : Ref sig .tc := ⟨.hbm, 81, rfl⟩
abbrev main_v59 : Ref sig .tc := ⟨.hbm, 82, rfl⟩
abbrev main_c_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_17 : Ref sig .tc := ⟨.hbm, 89, rfl⟩
abbrev main_v65 : Ref sig .tc := ⟨.hbm, 90, rfl⟩
abbrev main_v66 : Ref sig .tc := ⟨.hbm, 91, rfl⟩
abbrev main_c_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v38 : BitVec 1 := Scalar.cmpi .eq arg0 c199_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S50000 : S_.BroadcastsInDim S50000 (![] : Fin 0 → Fin S50000.rank)
  bcast_S_S500 : S_.BroadcastsInDim S500 (![] : Fin 0 → Fin S500.rank)
  bcast_S500_S500x1_0 : S500.BroadcastsInDim S500x1 (![0] : Fin 1 → Fin S500x1.rank)
  bcast_S_S5000 : S_.BroadcastsInDim S5000 (![] : Fin 0 → Fin S5000.rank)
  bcast_S5000_S5000x1_0 : S5000.BroadcastsInDim S5000x1 (![0] : Fin 1 → Fin S5000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  reduces_S8000x1_S1 : S8000x1.Reduces [0] S1
  shapeCasts_S1_S1x1 : S1.ShapeCasts S1x1
  shapeCasts_S1x1_S_ : S1x1.ShapeCasts S_
  scatter_S50000_S500x1_S500_n_0_0_1_wf : ScatterDims.WF S50000 S500x1 S500 [] [0] [0] 1
  scatter_S50000_S5000x1_S5000_n_0_0_1_wf : ScatterDims.WF S50000 S5000x1 S5000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1600000x128.size a
  hwx0_1 : ∀ i : grid0.Coords, EltTy.bits .f32 = 32 ∨ (Rect.block (s := S1600000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S50000_S500x1_S500_n_0_0_1 : ScatterDims S50000 S500x1 S500 where
  updateWindowDims := []
  insertedWindowDims := [0]
  scatterDimsToOperandDims := [0]
  indexVectorDim := 1
  wf := scatter_S50000_S500x1_S500_n_0_0_1_wf
def scatter_S50000_S5000x1_S5000_n_0_0_1 : ScatterDims S50000 S5000x1 S5000 where
  updateWindowDims := []
  insertedWindowDims := [0]
  scatterDimsToOperandDims := [0]
  indexVectorDim := 1
  wf := scatter_S50000_S5000x1_S5000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf

abbrev win0_0 : Pipeline.Window sig grid0 :=
  Pipeline.Window.ofSpec (Memref.whole main_v64) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x1600000 : Shape := ⟨2, ![2, 1600000]⟩
abbrev S1600000 : Shape := ⟨1, ![1600000]⟩
abbrev S50000x128 : Shape := ⟨2, ![50000, 128]⟩
abbrev S5000 : Shape := ⟨1, ![5000]⟩
abbrev S500 : Shape := ⟨1, ![500]⟩
abbrev S_ : Shape := ⟨0, ![]⟩
abbrev S50000 : Shape := ⟨1, ![50000]⟩
abbrev S500x1 : Shape := ⟨2, ![500, 1]⟩
abbrev S5000x1 : Shape := ⟨2, ![5000, 1]⟩
abbrev S1x1600000 : Shape := ⟨2, ![1, 1600000]⟩
abbrev S1600000x1 : Shape := ⟨2, ![1600000, 1]⟩
abbrev S1600000x128 : Shape := ⟨2, ![1600000, 128]⟩

abbrev nBuf : Space → Nat
  | .hbm => 129
  | .vmem => 0
  | .smem => 0
  | _ => 0

abbrev hbmTy0_0 (i : Nat) : BufTy := match i % 128 with
  | 0 => ⟨S2x1600000, .i32⟩
  | 1 => ⟨S1600000, .f32⟩
  | 2 => ⟨S50000x128, .f32⟩
  | 3 => ⟨S5000, .i32⟩
  | 4 => ⟨S500, .i32⟩
  | 5 => ⟨S_, .i1⟩
  | 6 => ⟨S50000, .i1⟩
  | 7 => ⟨S_, .i32⟩
  | 8 => ⟨S500, .i32⟩
  | 9 => ⟨S500, .i1⟩
  | 10 => ⟨S_, .i32⟩
  | 11 => ⟨S500, .i32⟩
  | 12 => ⟨S500, .i32⟩
  | 13 => ⟨S500, .i32⟩
  | 14 => ⟨S500x1, .i32⟩
  | 15 => ⟨S_, .i1⟩
  | 16 => ⟨S500, .i1⟩
  | 17 => ⟨S50000, .i1⟩
  | 18 => ⟨S_, .i1⟩
  | 19 => ⟨S50000, .i1⟩
  | 20 => ⟨S_, .i32⟩
  | 21 => ⟨S5000, .i32⟩
  | 22 => ⟨S5000, .i1⟩
  | 23 => ⟨S_, .i32⟩
  | 24 => ⟨S5000, .i32⟩
  | 25 => ⟨S5000, .i32⟩
  | 26 => ⟨S5000, .i32⟩
  | 27 => ⟨S5000x1, .i32⟩
  | 28 => ⟨S_, .i1⟩
  | 29 => ⟨S5000, .i1⟩
  | 30 => ⟨S50000, .i1⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .i1⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .i1⟩
  | 53 => ⟨S1600000, .i1⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .i1⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .i1⟩
  | 72 => ⟨S1600000, .i1⟩
  | 73 => ⟨S1600000, .i1⟩
  | 74 => ⟨S_, .f32⟩
  | 75 => ⟨S1600000, .f32⟩
  | 76 => ⟨S1600000, .i1⟩
  | 77 => ⟨S1600000, .i1⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S1600000x128, .f32⟩
  | 97 => ⟨S_, .f32⟩
  | 98 => ⟨S1600000, .f32⟩
  | 99 => ⟨S1600000x128, .f32⟩
  | 100 => ⟨S_, .f32⟩
  | 101 => ⟨S1600000, .f32⟩
  | 102 => ⟨S1600000, .f32⟩
  | 103 => ⟨S_, .f32⟩
  | 104 => ⟨S1600000, .f32⟩
  | 105 => ⟨S1600000, .f32⟩
  | 106 => ⟨S1600000x128, .f32⟩
  | 107 => ⟨S_, .f32⟩
  | 108 => ⟨S1600000, .f32⟩
  | 109 => ⟨S1600000, .f32⟩
  | 110 => ⟨S_, .f32⟩
  | 111 => ⟨S1600000, .f32⟩
  | 112 => ⟨S1600000, .f32⟩
  | 113 => ⟨S1600000, .f32⟩
  | 114 => ⟨S1600000, .f32⟩
  | 115 => ⟨S_, .f32⟩
  | 116 => ⟨S1600000, .f32⟩
  | 117 => ⟨S1600000, .f32⟩
  | 118 => ⟨S_, .f32⟩
  | 119 => ⟨S1600000, .f32⟩
  | 120 => ⟨S1600000, .f32⟩
  | 121 => ⟨S_, .f32⟩
  | 122 => ⟨S_, .f32⟩
  | 123 => ⟨S1600000, .f32⟩
  | 124 => ⟨S1600000, .f32⟩
  | 125 => ⟨S_, .f32⟩
  | 126 => ⟨S_, .f32⟩
  | 127 => ⟨S_, .f32⟩
  | _ => ⟨S2x1600000, .i32⟩

abbrev hbmTy0_1 (i : Nat) : BufTy := match i % 128 with
  | 0 => ⟨S_, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_13 : Ref sig .tc := ⟨.hbm, 63, rfl⟩
abbrev main_v44 : Ref sig .tc := ⟨.hbm, 64, rfl⟩
abbrev main_v45 : Ref sig .tc := ⟨.hbm, 65, rfl⟩
abbrev main_c_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_15 : Ref sig .tc := ⟨.hbm, 78, rfl⟩
abbrev main_v56 : Ref sig .tc := ⟨.hbm, 79, rfl⟩
abbrev main_v57 : Ref sig .tc := ⟨.hbm, 80, rfl⟩
abbrev main_c_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_17 : Ref sig .tc := ⟨.hbm, 87, rfl⟩
abbrev main_v63 : Ref sig .tc := ⟨.hbm, 88, rfl⟩
abbrev main_v64 : Ref sig .tc := ⟨.hbm, 89, rfl⟩
abbrev main_c_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_call0_v0 : Ref sig .tc := ⟨.hbm, 99, rfl⟩
abbrev main_call0_cst : Ref sig .tc := ⟨.hbm, 100, rfl⟩
abbrev main_call0_v1 : Ref sig .tc := ⟨.hbm, 101, rfl⟩
abbrev main_v72 : Ref sig .tc := ⟨.hbm, 102, rfl⟩
abbrev main_cst_20 : Ref sig .tc := ⟨.hbm, 103, rfl⟩
abbrev main_v73 : Ref sig .tc := ⟨.hbm, 104, rfl⟩
abbrev main_v74 : Ref sig .tc := ⟨.hbm, 105, rfl⟩
abbrev main_call1_v0 : Ref sig .tc := ⟨.hbm, 106, rfl⟩
abbrev main_call1_cst : Ref sig .tc := ⟨.hbm, 107, rfl⟩
abbrev main_call1_v1 : Ref sig .tc := ⟨.hbm, 108, rfl⟩
abbrev main_v75 : Ref sig .tc := ⟨.hbm, 109, rfl⟩
abbrev main_cst_21 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_22 : Ref sig .tc := ⟨.hbm, 115, rfl⟩
abbrev main_v80 : Ref sig .tc := ⟨.hbm, 116, rfl⟩
abbrev main_v81 : Ref sig .tc := ⟨.hbm, 117, rfl⟩
abbrev main_cst_23 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_call2_v0 : Ref sig .tc := ⟨.hbm, 122, rfl⟩
abbrev main_call2_v1 : Ref sig .tc := ⟨.hbm, 123, rfl⟩
abbrev main_v84 : Ref sig .tc := ⟨.hbm, 124, rfl⟩
abbrev main_cst_25 : Ref sig .tc := ⟨.hbm, 125, rfl⟩
abbrev main_v85 : Ref sig .tc := ⟨.hbm, 126, rfl⟩
abbrev main_cst_26 : Ref sig .tc := ⟨.hbm, 127, rfl⟩
abbrev main_v86 : Ref sig .tc := ⟨.hbm, 128, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S500 : S_.BroadcastsInDim S500 (![] : Fin 0 → Fin S500.rank)
  bcast_S500_S500x1_0 : S500.BroadcastsInDim S500x1 (![0] : Fin 1 → Fin S500x1.rank)
  bcast_S_S5000 : S_.BroadcastsInDim S5000 (![] : Fin 0 → Fin S5000.rank)
  bcast_S5000_S5000x1_0 : S5000.BroadcastsInDim S5000x1 (![0] : Fin 1 → Fin S5000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  reducesTo_S1600000_S_d0 : S1600000.ReducesTo [0] S_
  scatter_S50000_S500x1_S500_n_0_0_1_wf : ScatterDims.WF S50000 S500x1 S500 [] [0] [0] 1
  scatter_S50000_S5000x1_S5000_n_0_0_1_wf : ScatterDims.WF S50000 S5000x1 S5000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]

variable [Facts₀]

def scatter_S50000_S500x1_S500_n_0_0_1 : ScatterDims S50000 S500x1 S500 where
  updateWindowDims := []
  insertedWindowDims := [0]
  scatterDimsToOperandDims := [0]
  indexVectorDim := 1
  wf := scatter_S50000_S500x1_S500_n_0_0_1_wf
def scatter_S50000_S5000x1_S5000_n_0_0_1 : ScatterDims S50000 S5000x1 S5000 where
  updateWindowDims := []
  insertedWindowDims := [0]
  scatterDimsToOperandDims := [0]
  indexVectorDim := 1
  wf := scatter_S50000_S5000x1_S5000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf

class Facts : Prop extends Facts₀ where

variable [Facts]
-- ==== Proof.Spec.lean ====
/-
  The mathematics both programs compute, stated once over plain index types.

  An edge e carries two feature rows u = x[src e], v = x[dst e] of 128 extended reals and a weight w e.
  Its hinge is  max (1/2 − ⟨u,v⟩ / (max ‖u‖ ε · max ‖v‖ ε)) 0  with ‖u‖ = √(Σ u_d²), and the loss is
  100 · Σ_e hinge(e) · w(e) over the 1 600 000 edges.  The four float literals (ε, 1/2, 0, 100) stay
  as the words both programs print; only the zero word is ever evaluated.
-/
import Idealize.ShloMosaic.PureOps.Ideal
import Idealize.ShloMosaic.PureOps.Ideal.Laws
import Idealize.ShloMosaic.Lib.ValueIdx

noncomputable section

namespace Cert.HomoLoss

open Idealize.ShloMosaic

/-- The clamp ε of the norms (the f32 word nearest 1e-8). -/
abbrev eps : EReal := Ideal.ofBits .f32 0x322BCC77#32
/-- The threshold 1/2. -/
abbrev half : EReal := Ideal.ofBits .f32 0x3F000000#32
/-- The zero word. -/
abbrev zero : EReal := Ideal.ofBits .f32 0x00000000#32
/-- The loss weight 100. -/
abbrev weight : EReal := Ideal.ofBits .f32 0x42C80000#32

theorem zero_eq : zero = 0 := Ideal.ofBits_zero_f32

/-- The hinge of one edge from its two feature rows: `max (1/2 − cos(u, v)) 0`, the cosine with both norms
    clamped below by ε. -/
def hinge (u v : Fin 128 → EReal) : EReal :=
  max (half - Ideal.div (∑ d, u d * v d)
      (max (Ideal.sqrt (∑ d, u d * u d)) eps * max (Ideal.sqrt (∑ d, v d * v d)) eps)) zero

/-- A mask bit as a weight: 0 or 1. -/
def bitW (b : BitVec 1) : EReal := ((b.toNat : ℝ) : EReal)

/-- The loss: the weighted sum of the edges' hinges, times 100. -/
def loss (xu xv : Fin 1600000 → Fin 128 → EReal) (w : Fin 1600000 → EReal) : EReal :=
  (∑ e, hinge (xu e) (xv e) * w e) * weight

end Cert.HomoLoss

end
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.HostPrefix.lean ====
/-
  The three arrays the reduction reads, as the host lines before it compute them.

  Both programs prepare the same data from the arguments before they part ways: the feature rows gathered at the
  edges' first and second end points, and the edge mask (membership of the end points in the two node sets, and a
  nonzero edge weight).  The kernel's program additionally converts the mask to the numbers 0 and 1 and lays it out
  as a column.  Here each of the three arrays, as the reduction finds it, is identified with the reference's own
  stage of the same name — the host operations before the region are run forward on the launch memory and the two
  spellings of the same operations are compared as they stand; none of the gathers or scatters is opened.
-/
import proofs.«111179_j75935021793522_1_alg».proof.Proof.Gen.KernelIdeal.Frame
import proofs.«111179_j75935021793522_1_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.HostPrefix

open Cert.KernelIdeal Cert.KernelIdeal.Gen

variable {F : FTy → Type} [FloatOps F]
variable (m : (ℓ : Loc nD τ sig) → Buf (Elt F) ℓ)

set_option maxHeartbeats 4000000 in
/-- The first operand of the reduction is the reference's gather of the rows of `x` at the edges' first end points. -/
theorem V_xu (c : Dev nD) :
    (V m c main_v64 : S1600000x128.Idx → F .f32)
      = Cert.ReferenceIdeal.Read.val_main_v62 (F := F) (m ((c : Thread nD τ).loc main_arg0)) (m ((c : Thread nD τ).loc main_arg2)) := by
  show StableHlo.after hostOps0 (fun b => m (c, b)) (Proc.devRef .tc main_v64) = _
  after_results_simp
  rfl

set_option maxHeartbeats 4000000 in
/-- The second operand is the reference's gather at the second end points. -/
theorem V_xv (c : Dev nD) :
    (V m c main_v71 : S1600000x128.Idx → F .f32)
      = Cert.ReferenceIdeal.Read.val_main_v69 (F := F) (m ((c : Thread nD τ).loc main_arg0)) (m ((c : Thread nD τ).loc main_arg2)) := by
  show StableHlo.after hostOps0 (fun b => m (c, b)) (Proc.devRef .tc main_v71) = _
  after_results_simp
  rfl

set_option maxHeartbeats 4000000 in
/-- The third operand is the reference's edge mask, converted to a float and laid out as a column. -/
theorem V_act (c : Dev nD) :
    (V m c main_v57 : S1600000x1.Idx → F .f32)
      = shapeCast S1600000x1 (uitofp .f32 (Cert.ReferenceIdeal.Read.val_main_v55 (F := F) (m ((c : Thread nD τ).loc main_arg0))
          (m ((c : Thread nD τ).loc main_arg1)) (m ((c : Thread nD τ).loc main_arg3)) (m ((c : Thread nD τ).loc main_arg4))))
          shapeCasts_S1600000_S1600000x1 := by
  show StableHlo.after hostOps0 (fun b => m (c, b)) (Proc.devRef .tc main_v57) = _
  after_results_simp
  rfl

end Cert.KernelIdeal.HostPrefix

end
-- ==== Proof.LibTiledSum.lean ====
/-
  A sum over an index range taken tile by tile. For a function on `Fin n` into an additive commutative monoid, the
  partial sum below `k` is the sum of its values at the indices `e < k`; the partial sum below `0` is `0`, the partial
  sum below `n` is the whole sum, and the partial sum below `k + b` is the partial sum below `k` plus the sum of the
  `b` values of the tile that starts at `k`. So a sum accumulated tile after tile, starting from zero, ends at the
  whole sum, whatever the monoid — in particular over the extended reals, where no value need be finite.
-/
import Mathlib

namespace Cert.TiledSum

variable {M : Type*} [AddCommMonoid M] {n : ℕ}

/-- A function on `Fin n` continued by zero to every natural number. -/
def ext0 (f : Fin n → M) (e : ℕ) : M := if h : e < n then f ⟨e, h⟩ else 0

theorem ext0_of_lt (f : Fin n → M) {e : ℕ} (h : e < n) : ext0 f e = f ⟨e, h⟩ := dif_pos h

/-- The sum of the values of `f` at the indices below `k`. -/
def partialSum (f : Fin n → M) (k : ℕ) : M := ∑ e ∈ Finset.range k, ext0 f e

@[simp] theorem partialSum_zero (f : Fin n → M) : partialSum f 0 = 0 := Finset.sum_range_zero _

/-- Below `n` the partial sum is the whole sum. -/
theorem partialSum_full (f : Fin n → M) : partialSum f n = ∑ e : Fin n, f e := by
  unfold partialSum
  rw [← Fin.sum_univ_eq_sum_range (fun e => ext0 f e) n]
  exact Finset.sum_congr rfl fun e _ => by rw [ext0_of_lt f e.isLt]

/-- One more tile: the partial sum below `k + b` is the partial sum below `k` plus the sum over the tile of `b` indices
    starting at `k`, the tile's values given as a function `g` on `Fin b`. -/
theorem partialSum_add_tile (f : Fin n → M) (k b : ℕ) (hkb : k + b ≤ n) (g : Fin b → M)
    (hg : ∀ d : Fin b, g d = f ⟨k + d.val, by have := d.isLt; omega⟩) :
    partialSum f (k + b) = partialSum f k + ∑ d : Fin b, g d := by
  unfold partialSum
  rw [Finset.sum_range_add, ← Fin.sum_univ_eq_sum_range (fun d => ext0 f (k + d)) b]
  congr 1
  exact Finset.sum_congr rfl fun d _ => by
    rw [hg d, ext0_of_lt f (by have := d.isLt; omega)]

end Cert.TiledSum
-- ==== Proof.Pieces.lean ====
/-
  What one grid step of the reduction leaves behind, as values of what it loaded.

  The body keeps a one-entry running sum in a scratch cell.  At the first step it stores the zero splat there and
  then adds the step's block sum to what it reads back; at every later step it adds the block sum to what the step
  before left; at the last step it also stores the running sum times 100 into the output cell.  Each statement
  below reads one such cell back as the body's arithmetic (the payloads `k0_pay1`, `k0_pay2`, `k0_pay3`) applied
  to the loaded blocks: a cell written once through its whole rectangle holds exactly the value written, and a load
  through a whole rectangle returns the buffer's contents.
-/
import proofs.«111179_j75935021793522_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A middle step (neither first nor last): the scratch cell, holding `xs0`, ends at the step's payload of the three
    loaded blocks and `xs0`. -/
theorem scratch_mid (c : Dev nD) (i : grid0.Coords) (a1 : Memref sig .tc .vmem S8000x128 .f32) (h1 : a1.IsWhole)
    (a2 : Memref sig .tc .vmem S8000x128 .f32) (h2 : a2.IsWhole) (a3 : Memref sig .tc .vmem S8000x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 x1 : Vec F S8000x128 .f32) (x2 : Vec F S8000x1 .f32) (xs0 : Vec F S1x1 .f32) :
    sout0_B_0 c i a1 h1 a2 h2 a3 h3 a4 h4 a5 h5 hc0 hc1 x0 x1 x2 xs0 = k0_pay3 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero (S := S1x1) hz]
  simp only [View.readAt_eq_ld, h1.read_unread, h2.read_unread, h3.read_unread, h5.read_unread,
    View.ld_unit_zero (S := S8000x128) hz, View.ld_unit_zero (S := S8000x1) hz, View.ld_unit_zero (S := S1x1) hz]

/-- The first step: the scratch cell is reset to the zero splat, read back, and ends at the step's payload of the
    three loaded blocks and that splat. -/
theorem scratch_first (c : Dev nD) (i : grid0.Coords) (a1 : Memref sig .tc .vmem S8000x128 .f32) (h1 : a1.IsWhole)
    (a2 : Memref sig .tc .vmem S8000x128 .f32) (h2 : a2.IsWhole) (a3 : Memref sig .tc .vmem S8000x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 x1 : Vec F S8000x128 .f32) (x2 : Vec F S8000x1 .f32) :
    sout0_A_0 c i a1 h1 a2 h2 a3 h3 a4 h4 a5 h5 hc0 hc1 x0 x1 x2 = k0_pay3 x0 x1 x2 (k0_pay2 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8000x128) hz, View.ld_unit_zero (S := S8000x1) hz, View.ld_unit_zero (S := S1x1) hz]

/-- The last step: the output cell ends at 100 times the updated running sum. -/
theorem out_last (c : Dev nD) (i : grid0.Coords) (a1 : Memref sig .tc .vmem S8000x128 .f32) (h1 : a1.IsWhole)
    (a2 : Memref sig .tc .vmem S8000x128 .f32) (h2 : a2.IsWhole) (a3 : Memref sig .tc .vmem S8000x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 x1 : Vec F S8000x128 .f32) (x2 : Vec F S8000x1 .f32) (xs0 : Vec F S1x1 .f32) :
    out0_C_3 c i a1 h1 a2 h2 a3 h3 a4 h4 a5 h5 hc0 hc1 x0 x1 x2 xs0 = k0_pay1 (k0_pay3 x0 x1 x2 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero (S := S1x1) hz, View.readCov_unit_zero (S := S1x1) _ hz]
  simp only [View.readAt_eq_ld, h1.read_unread, h2.read_unread, h3.read_unread, h5.read_unread,
    View.ld_unit_zero (S := S8000x128) hz, View.ld_unit_zero (S := S8000x1) hz, View.ld_unit_zero (S := S1x1) hz]

end Cert.KernelIdeal.Pieces

end
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.LibColSum.lean ====
/-
  A column sum read at an index, on the extended reals: the sum over axis 0 of an [a, k] array at column `q` is the
  sum over the rows `p` of the entry `(p, q)`. Stated for the kernel's `vector.multi_reduction <add>` from the zero
  word (which yields the vector [k]) and for the host's `stablehlo.reduce` with an `add` body from a scalar initial
  value (which adds that value once). This is the axis-0 companion of a lane (axis-1) sum: the form a batch
  statistic over the rows of a block, or of the whole array, takes.
-/
import Idealize.ShloMosaic.PureOps.Ideal.Laws
import Idealize.ShloMosaic.Lib.ValueIdx

noncomputable section

namespace Cert.ColSum

open Idealize.ShloMosaic Idealize.ShloMosaic.ValueIdx

/-- The index that a column sum reads at row `p`: column `q` with the row coordinate inserted in front. -/
theorem lift_eq {a k : Nat} (h : Shape.Reduces ⟨2, ![a, k]⟩ [0] ⟨1, ![k]⟩) (q : Fin k) (p : Fin a) :
    h.lift (ix1 q) p = ix2 p q := by
  funext d
  refine Fin.ext ?_
  match d with
  | ⟨0, _⟩ => rfl
  | ⟨1, _⟩ => rfl

/-- A `vector.multi_reduction <add>` over axis 0 of an [a, k] f32 block from the zero word, at column `q`. -/
theorem colSum_apply {a k : Nat} (src : FVec Ideal ⟨2, ![a, k]⟩ .f32) (h : Shape.Reduces ⟨2, ![a, k]⟩ [0] ⟨1, ![k]⟩)
    (hφ : FKind.Formats .f32) (hacc : (0x00000000#32 : BitVec 32) = FKind.add.neutral .f32 hφ) (q : Fin k) :
    multiReduction .add [0] ⟨1, ![k]⟩ src 0x00000000#32 h hφ hacc (ix1 q) = ∑ p : Fin a, src (ix2 p q) := by
  refine (Ideal.multiReduction_add_single src _ h hφ hacc (ix1 q)).trans ?_
  exact Fintype.sum_congr _ _ fun p => congrArg src (lift_eq h q p)

/-- The host's sum over axis 0 of an [a, k] array from the initial value `init`, at column `q`. -/
theorem hostColSum_apply {a k : Nat} (x : (⟨2, ![a, k]⟩ : Shape).Idx → EReal)
    (h' : Shape.ReducesTo ⟨2, ![a, k]⟩ [0] ⟨1, ![k]⟩) (h : Shape.Reduces ⟨2, ![a, k]⟩ [0] ⟨1, ![k]⟩) (init : EReal)
    (q : Fin k) :
    Ideal.hostReduceAdd h' x init (ix1 q) = init + ∑ p : Fin a, x (ix2 p q) := by
  refine (Ideal.hostReduceAdd_single h' h x init (ix1 q)).trans ?_
  exact congrArg (init + ·) (Fintype.sum_congr _ _ fun p => congrArg x (lift_eq h q p))

/-- The printed form of the host's sum: `Host.reduceAdd` of an [a, k] array and a scalar initial value over axis 0, at
    column `q`, is the scalar plus the sum over the rows. -/
theorem hostReduceAdd_col_apply {a k : Nat} (x : FVec Ideal ⟨2, ![a, k]⟩ .f32) (init : FVec Ideal ⟨0, ![]⟩ .f32)
    (h' : Shape.ReducesTo ⟨2, ![a, k]⟩ [0] ⟨1, ![k]⟩) (hu : 0 < (⟨0, ![]⟩ : Shape).numel)
    (h : Shape.Reduces ⟨2, ![a, k]⟩ [0] ⟨1, ![k]⟩) (q : Fin k) :
    Host.reduceAdd x init h' hu (ix1 q) = init ix0 + ∑ p : Fin a, x (ix2 p q) := by
  refine (hostColSum_apply x h' h _ q).trans ?_
  exact congrArg (· + ∑ p : Fin a, x (ix2 p q)) (congrArg init (funext fun d => d.elim0))

end Cert.ColSum
-- ==== Proof.Payload.lean ====
/-
  The kernel body's arithmetic at the exact instance, read at an index.

  One grid step holds the feature rows of the two end points of 8000 edges (two [8000, 128] blocks), the
  edges' weights (an [8000, 1] column) and the running sum (a [1, 1] cell).  For every edge it forms the
  dot product and the two squared norms of the rows as lane sums, the clamped cosine, the hinge
  max (1/2 − cos) 0, multiplies by the weight, sums the column over the 8000 rows and adds the total to
  the running sum.  The other two payloads are the zero the running sum starts from and the final
  multiplication by 100.
-/
import proofs.«111179_j75935021793522_1_alg».proof.Proof.Gen.KernelIdeal.Skeleton
import proofs.«111179_j75935021793522_1_alg».proof.Proof.Spec
import proofs.«111179_j75935021793522_1_alg».proof.Proof.LibLaneSum
import proofs.«111179_j75935021793522_1_alg».proof.Proof.LibLayout
import proofs.«111179_j75935021793522_1_alg».proof.Proof.LibColSum
import Idealize.ShloMosaic.Lib.ValueIdx
import Idealize.ShloMosaic.Lib.Pipeline.Value
import Idealize.ShloMosaic.PureOps.Ideal.Laws

noncomputable section

namespace Cert.HomoLoss.Payload

open Idealize.ShloMosaic Idealize.ShloMosaic.ValueIdx Cert.KernelIdeal Cert.KernelIdeal.Gen

/-- The [1, 1] shape has one index. -/
theorem idx_S1x1 (j : S1x1.Idx) : j = ix2 (0 : Fin 1) (0 : Fin 1) := by
  funext a
  refine Fin.ext ?_
  match a with
  | ⟨0, _⟩ =>
    have h := idx2_lt0 (n0 := 1) (n1 := 1) j
    show (j 0).val = 0
    omega
  | ⟨1, _⟩ =>
    have h := idx2_lt1 (n0 := 1) (n1 := 1) j
    show (j 1).val = 0
    omega

/-- The hinge as a function of the three row sums it is made of: the dot product and the two squared norms. -/
def hingeOf (dot ssu ssv : EReal) : EReal :=
  max (half - Ideal.div dot (max (Ideal.sqrt ssu) eps * max (Ideal.sqrt ssv) eps)) zero

/-- The hinge of two rows is `hingeOf` of their dot product and squared norms. -/
theorem hinge_eq (u v : Fin 128 → EReal) :
    hinge u v = hingeOf (∑ d, u d * v d) (∑ d, u d * u d) (∑ d, v d * v d) := rfl

/-- A lane sum of a product of two [8000, 128] blocks, cast to a column, read at row `r`: the sum over the 128
    lanes of the products of the two rows' entries. -/
theorem rowSum_apply (a b : FVec Ideal S8000x128 .f32) (h1 h2 : S8000x128.ShapeCasts S8000x128)
    (hr : S8000x128.Reduces [1] S8000) (hφ : FKind.Formats .f32)
    (hacc : (0x00000000#32 : BitVec 32) = 0x00000000#32) (hc : S8000.ShapeCasts S8000x1) (r : Fin 8000) :
    shapeCast S8000x1 (multiReduction .add [1] S8000
        (mulf (shapeCast S8000x128 a h1) (shapeCast S8000x128 b h2)) 0x00000000#32 hr hφ hacc) hc (ix2 r (0 : Fin 1))
      = ∑ d : Fin 128, a (ix2 r d) * b (ix2 r d) := by
  rw [shapeCast_self a h1, shapeCast_self b h2]
  refine (Cert.Layout.shapeCast_a_a1_apply _ hc r 0).trans ?_
  exact Cert.LaneSum.laneSum_apply (mulf a b) hr hφ hacc r

/-- The pointwise part of one edge's term: from the columns of dot products, squared norms and weights to
    the hinge times the weight, at any index of the column. -/
theorem term_apply (dot ssu ssv w : FVec Ideal S8000x1 .f32) (i : S8000x1.Idx) :
    mulf (maximumf (subf (broadcast S8000x1 (Scalar.ofBits (F := Ideal) .f32 0x3F000000#32))
        (divf dot (mulf (maximumf (sqrt ssu) (broadcast S8000x1 (Scalar.ofBits (F := Ideal) .f32 0x322BCC77#32)))
          (maximumf (sqrt ssv) (broadcast S8000x1 (Scalar.ofBits (F := Ideal) .f32 0x322BCC77#32))))))
        (broadcast S8000x1 (Scalar.ofBits (F := Ideal) .f32 0x00000000#32))) w i
      = hingeOf (dot i) (ssu i) (ssv i) * w i := rfl

/-- One grid step's new running sum: the old one plus the sum over the block's 8000 edges of hinge times weight. -/
theorem pay3_apply00 (x0 x1 : Vec Ideal S8000x128 .f32) (x2 : Vec Ideal S8000x1 .f32) (xs : Vec Ideal S1x1 .f32) :
    k0_pay3 (F := Ideal) x0 x1 x2 xs (ix2 (0 : Fin 1) (0 : Fin 1))
      = xs (ix2 (0 : Fin 1) (0 : Fin 1))
        + ∑ r : Fin 8000, Cert.HomoLoss.hinge (fun d => x0 (ix2 r d)) (fun d => x1 (ix2 r d)) * x2 (ix2 r (0 : Fin 1)) := by
  unfold k0_pay3
  refine (congrFun (shapeCast_self _ _) _).trans ?_
  refine congrArg (xs (ix2 (0 : Fin 1) (0 : Fin 1)) + ·) ?_
  refine (Cert.Layout.shapeCast_a_a1_apply _ _ (0 : Fin 1) (0 : Fin 1)).trans ?_
  refine (Cert.ColSum.colSum_apply _ _ _ _ (0 : Fin 1)).trans ?_
  refine Finset.sum_congr rfl fun r _ => ?_
  refine (term_apply _ _ _ _ _).trans ?_
  rw [hinge_eq]
  exact congrArg₂ (· * ·)
    (congr (congr (congrArg hingeOf (rowSum_apply x0 x1 _ _ _ _ _ _ r)) (rowSum_apply x0 x0 _ _ _ _ _ _ r))
      (rowSum_apply x1 x1 _ _ _ _ _ _ r))
    (congrFun (shapeCast_self x2 _) _)

theorem pay3_apply (x0 x1 : Vec Ideal S8000x128 .f32) (x2 : Vec Ideal S8000x1 .f32) (xs : Vec Ideal S1x1 .f32) (j : S1x1.Idx) :
    k0_pay3 (F := Ideal) x0 x1 x2 xs j
      = xs j + ∑ r : Fin 8000, Cert.HomoLoss.hinge (fun d => x0 (ix2 r d)) (fun d => x1 (ix2 r d)) * x2 (ix2 r (0 : Fin 1)) := by
  obtain rfl := idx_S1x1 j
  exact pay3_apply00 x0 x1 x2 xs

theorem pay2_apply (j : S1x1.Idx) : k0_pay2 (F := Ideal) j = Cert.HomoLoss.zero := by
  unfold k0_pay2
  exact congrFun (shapeCast_self _ _) j

theorem pay1_apply (v : Vec Ideal S1x1 .f32) (j : S1x1.Idx) : k0_pay1 (F := Ideal) v j = v j * Cert.HomoLoss.weight := rfl

end Cert.HomoLoss.Payload

end
-- ==== Proof.Blocks.lean ====
/-
  The blocks the reduction's windows read at grid step t.

  Each of the three operands is cut into 200 consecutive row blocks of 8000 rows (the block index map is
  `t ↦ (t, 0)`), so the entry (r, d) of the block fetched at step t is the entry (8000 t + r, d) of the operand's
  array as the region finds it.
-/
import proofs.«111179_j75935021793522_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of each operand at step `t` is `(t, 0)`: decided once over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The first operand's block at step `t`, entry `y`, is the array's entry in row `8000 t + y₀`, column `y₁`. -/
theorem iblk0_apply (c : Dev nD) (t : Fin cfg0.N) (y : S8000x128.Idx) (i : S1600000x128.Idx)
    (h0 : (i 0).val = 8000 * t.val + (y 0).val) (h1 : (i 1).val = (y 1).val) :
    iblk m c 0 t y = V m c main_v64 i := by
  unfold iblk
  rw [View.read_apply]
  show V m c main_v64 (((cfg0.win 0).blk t).view.emb y) = V m c main_v64 i
  refine congrArg _ (funext fun a => Fin.ext ?_)
  match a with
  | ⟨0, _⟩ => show win0_0.index t 0 * 8000 + 1 * (y 0).val = (i 0).val; rw [(idx0 t).1]; omega
  | ⟨1, _⟩ => show win0_0.index t 1 * 128 + 1 * (y 1).val = (i 1).val; rw [(idx0 t).2]; omega

/-- The same for the second operand. -/
theorem iblk1_apply (c : Dev nD) (t : Fin cfg0.N) (y : S8000x128.Idx) (i : S1600000x128.Idx)
    (h0 : (i 0).val = 8000 * t.val + (y 0).val) (h1 : (i 1).val = (y 1).val) :
    iblk m c 1 t y = V m c main_v71 i := by
  unfold iblk
  rw [View.read_apply]
  show V m c main_v71 (((cfg0.win 1).blk t).view.emb y) = V m c main_v71 i
  refine congrArg _ (funext fun a => Fin.ext ?_)
  match a with
  | ⟨0, _⟩ => show win0_1.index t 0 * 8000 + 1 * (y 0).val = (i 0).val; rw [(idx1 t).1]; omega
  | ⟨1, _⟩ => show win0_1.index t 1 * 128 + 1 * (y 1).val = (i 1).val; rw [(idx1 t).2]; omega

/-- The same for the column of edge weights. -/
theorem iblk2_apply (c : Dev nD) (t : Fin cfg0.N) (y : S8000x1.Idx) (i : S1600000x1.Idx)
    (h0 : (i 0).val = 8000 * t.val + (y 0).val) (h1 : (i 1).val = (y 1).val) :
    iblk m c 2 t y = V m c main_v57 i := by
  unfold iblk
  rw [View.read_apply]
  show V m c main_v57 (((cfg0.win 2).blk t).view.emb y) = V m c main_v57 i
  refine congrArg _ (funext fun a => Fin.ext ?_)
  match a with
  | ⟨0, _⟩ => show win0_2.index t 0 * 8000 + 1 * (y 0).val = (i 0).val; rw [(idx2 t).1]; omega
  | ⟨1, _⟩ => show win0_2.index t 1 * 1 + 1 * (y 1).val = (i 1).val; rw [(idx2 t).2]; omega

end Cert.KernelIdeal.Blocks

end
-- ==== Proof.Accum.lean ====
/-
  The running sum across the grid.

  The 1 600 000 edges are cut into 200 consecutive tiles of 8000.  Step t of the grid adds to a one-entry running
  sum the contributions `hinge(e) · w(e)` of the edges of tile t; the sum starts from the zero word at step 0 and
  after the last step it is multiplied by 100 and written out.  So after step n the cell holds the zero word plus
  the partial sum of the contributions of the first 8000 (n + 1) edges (by induction on n, one tile at a time), and
  what is written out is the zero word plus the whole sum, times 100.  Sums of extended reals are sums in a
  commutative monoid, so no entry needs to be finite for the tile-by-tile accumulation to be the whole sum.
-/
import proofs.«111179_j75935021793522_1_alg».proof.Proof.Gen.KernelIdeal.Frame
import proofs.«111179_j75935021793522_1_alg».proof.Proof.Spec
import proofs.«111179_j75935021793522_1_alg».proof.Proof.LibTiledSum
import proofs.«111179_j75935021793522_1_alg».proof.Proof.Pieces
import proofs.«111179_j75935021793522_1_alg».proof.Proof.Payload
import proofs.«111179_j75935021793522_1_alg».proof.Proof.Blocks
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Accum

open Cert.KernelIdeal Cert.KernelIdeal.Gen Cert.HomoLoss Cert.TiledSum

variable (m : (ℓ : Loc nD τ sig) → Buf (Elt Ideal) ℓ)

/-- The rows of the first end points' features, edge by edge. -/
def xu (c : Dev nD) : Fin 1600000 → Fin 128 → EReal := fun e d => (V m c main_v64 : S1600000x128.Idx → EReal) (ix2 e d)
/-- The rows of the second end points' features. -/
def xv (c : Dev nD) : Fin 1600000 → Fin 128 → EReal := fun e d => (V m c main_v71 : S1600000x128.Idx → EReal) (ix2 e d)
/-- The edges' weights. -/
def wt (c : Dev nD) : Fin 1600000 → EReal := fun e => (V m c main_v57 : S1600000x1.Idx → EReal) (ix2 e (0 : Fin 1))
/-- One edge's contribution. -/
def term (c : Dev nD) (e : Fin 1600000) : EReal := hinge (xu m c e) (xv m c e) * wt m c e

theorem hN : cfg0.N = 200 := N_0

/-- The index of the `r`-th edge of step `t`. -/
def edgeAt (t : Fin cfg0.N) (r : Fin 8000) : Fin 1600000 :=
  ⟨8000 * t.val + r.val, by have := t.isLt; have := hN; have := r.isLt; omega⟩

/-- One step's payload over blocks known to be the step's rows of the three arrays: the running sum plus the
    contributions of the step's 8000 edges. -/
theorem block_sum_of (c : Dev nD) (t : Fin cfg0.N) (X0 X1 : Vec Ideal S8000x128 .f32) (X2 : Vec Ideal S8000x1 .f32)
    (h0 : ∀ (r : Fin 8000) (d : Fin 128), X0 (ix2 r d) = xu m c (edgeAt t r) d)
    (h1 : ∀ (r : Fin 8000) (d : Fin 128), X1 (ix2 r d) = xv m c (edgeAt t r) d)
    (h2 : ∀ r : Fin 8000, X2 (ix2 r (0 : Fin 1)) = wt m c (edgeAt t r))
    (xs : Vec Ideal S1x1 .f32) (j : S1x1.Idx) :
    k0_pay3 (F := Ideal) X0 X1 X2 xs j = xs j + ∑ r : Fin 8000, term m c (edgeAt t r) := by
  refine (Payload.pay3_apply X0 X1 X2 xs j).trans ?_
  refine congrArg (xs j + ·) (Finset.sum_congr rfl fun r _ => ?_)
  unfold term
  rw [show (fun d : Fin 128 => X0 (ix2 r d)) = xu m c (edgeAt t r) from funext fun d => h0 r d,
    show (fun d : Fin 128 => X1 (ix2 r d)) = xv m c (edgeAt t r) from funext fun d => h1 r d, h2 r]

set_option maxHeartbeats 4000000 in
/-- The block sum of step `t` is the sum of the contributions of the 8000 edges from `8000 t` on. -/
theorem block_sum (c : Dev nD) (t : Fin cfg0.N) (xs : Vec Ideal S1x1 .f32) (j : S1x1.Idx) :
    k0_pay3 (F := Ideal) (iblk m c 0 t) (iblk m c 1 t) (iblk m c 2 t) xs j
      = xs j + ∑ r : Fin 8000, term m c (edgeAt t r) :=
  block_sum_of m c t (iblk m c 0 t) (iblk m c 1 t) (iblk m c 2 t)
    (fun r d => Blocks.iblk0_apply m c t (ix2 r d) (ix2 (edgeAt t r) d) rfl rfl)
    (fun r d => Blocks.iblk1_apply m c t (ix2 r d) (ix2 (edgeAt t r) d) rfl rfl)
    (fun r => Blocks.iblk2_apply m c t (ix2 r (0 : Fin 1)) (ix2 (edgeAt t r) (0 : Fin 1)) rfl rfl) xs j

/-- After step `n` (before the last) the scratch cell holds the zero word plus the contributions of the first
    `8000 (n + 1)` edges. -/
theorem acc_eq (c : Dev nD) : ∀ (n : ℕ) (h : n < cfg0.N), n < 199 →
    (outsAt0 m c n h).2 = fun _ => zero + partialSum (term m c) (8000 * (n + 1))
  | 0, h, _ => by
    rw [outsAt0_A m c ⟨0, h⟩ rfl (by dsimp only; omega)]
    dsimp only
    rw [Pieces.scratch_first]
    funext j
    rw [block_sum m c ⟨0, h⟩ _ j, Payload.pay2_apply]
    refine congrArg (zero + ·) ?_
    have := partialSum_add_tile (term m c) 0 8000 (by norm_num) (fun r : Fin 8000 => term m c (edgeAt ⟨0, h⟩ r))
      (fun d => congrArg (term m c) (Fin.ext (by show 8000 * 0 + d.val = 0 + d.val; omega)))
    rw [show 8000 * (0 + 1) = 0 + 8000 from rfl, this, partialSum_zero, zero_add]
  | n + 1, h, hlt => by
    have hN' := hN
    have hB0 : ¬(⟨n + 1, h⟩ : Fin cfg0.N).val % 200 = 0 := by dsimp only; omega
    have hB1 : ¬(⟨n + 1, h⟩ : Fin cfg0.N).val % 200 = 199 := by dsimp only; omega
    rw [outsAt0_B m c ⟨n + 1, h⟩ hB0 hB1]
    dsimp only
    rw [Pieces.scratch_mid]
    funext j
    rw [block_sum m c ⟨n + 1, h⟩ _ j]
    show (outsAt0 m c n _).2 j + _ = _
    rw [acc_eq c n (Nat.lt_of_succ_lt h) (by omega)]
    dsimp only
    have := partialSum_add_tile (term m c) (8000 * (n + 1)) 8000 (by omega) (fun r : Fin 8000 => term m c (edgeAt ⟨n + 1, h⟩ r))
      (fun d => rfl)
    rw [show 8000 * (n + 1 + 1) = 8000 * (n + 1) + 8000 from by ring, this, add_assoc]

/-- What the kernel writes out: the zero word plus the sum of all the edges' contributions, times 100. -/
def total (c : Dev nD) : EReal := (zero + partialSum (term m c) 1600000) * weight

/-- At the last step the output cell receives `total`. -/
theorem last_eq (c : Dev nD) (t : Fin cfg0.N) (h199 : t.val = 199) :
    (outsAt0 m c t.val t.isLt).1 = fun _ => total m c := by
  obtain ⟨n, hn⟩ := t
  dsimp only at h199
  subst h199
  rw [outsAt0_C m c ⟨199, hn⟩ (by dsimp only; omega) (by dsimp only)]
  dsimp only
  rw [Pieces.out_last]
  funext j
  rw [Payload.pay1_apply, block_sum m c ⟨199, hn⟩ _ j]
  show ((outsAt0 m c 198 _).2 j + _) * weight = _
  rw [acc_eq m c 198 _ (by omega)]
  dsimp only
  have := partialSum_add_tile (term m c) (8000 * (198 + 1)) 8000 (by norm_num) (fun r : Fin 8000 => term m c (edgeAt ⟨199, hn⟩ r))
    (fun d => rfl)
  unfold total
  rw [(congrArg (partialSum (term m c)) (show (1600000 : ℕ) = 8000 * (198 + 1) + 8000 from rfl)).trans this, add_assoc]

/-- The whole sum over the edges, in the specification's form. -/
theorem total_eq (c : Dev nD) : total m c = loss (xu m c) (xv m c) (wt m c) := by
  unfold total loss
  rw [partialSum_full, zero_eq, zero_add]
  rfl

end Cert.KernelIdeal.Accum

end
-- ==== Proof.Result.lean ====
/-
  From what the last grid step leaves in the output cell to the program's result.

  The output window is one [1, 1] block whose index never moves; it is written back once, after the last
  of the 200 grid steps, and that block is the whole [1, 1] array.  So if the last step leaves the
  constant R in the cell, the array after the region holds R, and the one host line after the region,
  the reshape of the [1, 1] array to a scalar, yields R again.
-/
import proofs.«111179_j75935021793522_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen

variable {F : FTy → Type} [FloatOps F]
variable (m : (ℓ : Loc nD τ sig) → Buf (Elt F) ℓ)

/-- The output window's block index is (0, 0) at every grid point. -/
theorem index_fixed : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The last grid point. -/
def tlast : Fin cfg0.N := ⟨199, by rw [show cfg0.N = 200 from N_0]; decide⟩

/-- The one write-back, at point 199, writes the constant: the block read out of the constant array is constant. -/
theorem flushed_eq (c : Dev nD) (R : F .f32)
    (hlast : ∀ t : Fin cfg0.N, t.val = 199 → (outsAt0 m c t.val t.isLt).1 = fun _ => R)
    (t : Fin cfg0.N) (hf : (cfg0.win 3).flush t = true) :
    (dats m 0 c).flushed 3 t = ((cfg0.win 3).blk t).view.read (Elt F) (fun _ => R) := by
  have hN : cfg0.N = 200 := N_0
  have h199 : t.val = 199 := by have := (flush0_3 t).mp hf; have := t.isLt; omega
  show (cfg0.win 3).cut (grid0.coords t) ((dats m 0 c).after 3 t) = _
  rw [after0_3, hlast t h199]
  funext j
  rw [View.read_apply]
  rfl

/-- from what the last grid step leaves in the output cell to the output array after the region -/
theorem final_arr (c : Dev nD) (R : F .f32)
    (hlast : ∀ t : Fin cfg0.N, t.val = 199 → (outsAt0 m c t.val t.isLt).1 = fun _ => R) :
    (dats m 0 c).arrAt 3 cfg0.N = fun _ => R :=
  (dats m 0 c).arrAt_eq_of_cover 3 (fun _ => R) (flushed_eq m c R hlast) fun i =>
    ⟨tlast, (flush0_3 tlast).mpr rfl, by
      show i ∈ ((View.whole main_v72).slice (win0_3.rect tlast)).set
      rw [View.set_slice_whole, Rect.mem_set_unit]
      intro a
      have h0 : (i 0 : Nat) < 1 := (i 0).isLt
      have h1 : (i 1 : Nat) < 1 := (i 1).isLt
      obtain ⟨e0, e1⟩ := index_fixed tlast
      match a with
      | ⟨0, _⟩ =>
        show win0_3.index tlast (0 : Fin 2) * 1 ≤ (i 0 : Nat) ∧ (i 0 : Nat) < win0_3.index tlast (0 : Fin 2) * 1 + 1
        omega
      | ⟨1, _⟩ =>
        show win0_3.index tlast (1 : Fin 2) * 1 ≤ (i 1 : Nat) ∧ (i 1 : Nat) < win0_3.index tlast (1 : Fin 2) * 1 + 1
        omega⟩

/-- and through the one host line after the region (the reshape of the [1,1] array to a scalar) -/
theorem final_res (c : Dev nD) (R : F .f32)
    (hlast : ∀ t : Fin cfg0.N, t.val = 199 → (outsAt0 m c t.val t.isLt).1 = fun _ => R) :
    Pipeline.afterTail₀ cfgs (dats m) 0 (V0 m) [hostOps1] c main_v73 = fun _ => R := by
  unfold Pipeline.afterTail₀
  show StableHlo.after hostOps1 _ (Proc.devRef .tc main_v73) = _
  after_results
  have e : Pipeline.withArrays (cfgs 0).spec c (V0 m c) (fun w => (dats m 0 c).arrAt w (cfgs 0).N)
      (Proc.devRef .tc main_v72) = fun _ => R :=
    (Pipeline.withArrays_arr spec0 launch0.win.arr_inj c _ _ 3).trans (final_arr m c R hlast)
  rw [e]
  funext i
  rfl

end Cert.KernelIdeal.Result

end
-- ==== Proof.KernelRun.lean ====
/-
  The idealized kernel's run, read: its result is the specification's loss of the three prepared arrays.

  The frame run of the program states every buffer after the run.  The scalar result is the reshape of the
  reduction's [1,1] output array, which the last grid step fills with the zero word plus the whole sum of the
  edges' contributions, times 100; the edges' feature rows and weights are the reference's own gathers and its
  mask bit read as 0 or 1.  The five argument arrays end as they were launched.
-/
import proofs.«111179_j75935021793522_1_alg».proof.Proof.Gen.KernelIdeal.Frame
import proofs.«111179_j75935021793522_1_alg».proof.Proof.Gen.ReferenceIdeal.Read
import proofs.«111179_j75935021793522_1_alg».proof.Proof.Spec
import proofs.«111179_j75935021793522_1_alg».proof.Proof.LibLayout
import proofs.«111179_j75935021793522_1_alg».proof.Proof.HostPrefix
import proofs.«111179_j75935021793522_1_alg».proof.Proof.Accum
import proofs.«111179_j75935021793522_1_alg».proof.Proof.Result
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KernelRun

open Cert.KernelIdeal Cert.KernelIdeal.Gen Cert.HomoLoss

variable (m : (ℓ : Loc nD τ sig) → Buf (Elt Ideal) ℓ) (ρ : Dev nD → PrngReg)

/-- The loss of the reference's own prepared arrays (its two gathers and its mask), at the kernel's arguments. -/
def lossOfArgs (c : Dev nD) : EReal :=
  loss
    (fun e d => Cert.ReferenceIdeal.Read.val_main_v62 (F := Ideal) (m ((c : Thread nD τ).loc main_arg0)) (m ((c : Thread nD τ).loc main_arg2)) (ix2 e d))
    (fun e d => Cert.ReferenceIdeal.Read.val_main_v69 (F := Ideal) (m ((c : Thread nD τ).loc main_arg0)) (m ((c : Thread nD τ).loc main_arg2)) (ix2 e d))
    (fun e => bitW (Cert.ReferenceIdeal.Read.val_main_v55 (F := Ideal) (m ((c : Thread nD τ).loc main_arg0))
      (m ((c : Thread nD τ).loc main_arg1)) (m ((c : Thread nD τ).loc main_arg3)) (m ((c : Thread nD τ).loc main_arg4)) (ix1 e)))

/-- The weight column's entry of edge `e` is the mask bit of `e` as 0 or 1. -/
theorem wt_eq (c : Dev nD) (e : Fin 1600000) :
    Accum.wt m c e
      = bitW (Cert.ReferenceIdeal.Read.val_main_v55 (F := Ideal) (m ((c : Thread nD τ).loc main_arg0))
          (m ((c : Thread nD τ).loc main_arg1)) (m ((c : Thread nD τ).loc main_arg3)) (m ((c : Thread nD τ).loc main_arg4)) (ix1 e)) := by
  unfold Accum.wt
  refine (congrFun (HostPrefix.V_act m c) (ix2 e (0 : Fin 1))).trans ?_
  refine (Cert.Layout.shapeCast_a_a1_apply _ _ e (0 : Fin 1)).trans ?_
  rfl

/-- What the kernel writes out is the loss of the reference's prepared arrays. -/
theorem total_eq (c : Dev nD) : Accum.total m c = lossOfArgs m c := by
  rw [Accum.total_eq]
  unfold lossOfArgs
  have e0 : Accum.xu m c = fun e d => Cert.ReferenceIdeal.Read.val_main_v62 (F := Ideal) (m ((c : Thread nD τ).loc main_arg0)) (m ((c : Thread nD τ).loc main_arg2)) (ix2 e d) :=
    funext fun e => funext fun d => congrFun (HostPrefix.V_xu m c) (ix2 e d)
  have e1 : Accum.xv m c = fun e d => Cert.ReferenceIdeal.Read.val_main_v69 (F := Ideal) (m ((c : Thread nD τ).loc main_arg0)) (m ((c : Thread nD τ).loc main_arg2)) (ix2 e d) :=
    funext fun e => funext fun d => congrFun (HostPrefix.V_xv m c) (ix2 e d)
  have e2 : Accum.wt m c = fun e => bitW (Cert.ReferenceIdeal.Read.val_main_v55 (F := Ideal) (m ((c : Thread nD τ).loc main_arg0))
      (m ((c : Thread nD τ).loc main_arg1)) (m ((c : Thread nD τ).loc main_arg3)) (m ((c : Thread nD τ).loc main_arg4)) (ix1 e)) :=
    funext fun e => wt_eq m c e
  rw [e0, e1, e2]

/-- The run: every weakly fair execution terminates with the scalar result at the loss of the prepared arrays and
    the five arguments unchanged. -/
theorem run : θ_run defs (onTc (τ := τ) (main (F := Ideal))) ⟨m, fun _ => 0, ρ⟩ (fun r => ∀ c : Dev nD,
      r.2.mem ((c.tc : Thread nD τ).loc main_v73) = (fun _ => lossOfArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v73 (Pipeline.mem_restRefs_of main_v73 (by decide) (by decide))).trans
        (Result.final_res m c (Accum.total m c) (Accum.last_eq m c))).trans (congrArg (fun x : EReal => fun _ => x) (total_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.RefLoss.lean ====
/-
  The reference program computes the specification's loss.

  Read one operation at a time, the reference's result is
    100 · (0 + Σ_j select(mask j, max (1/2 − (0 + Σ_k u_jk · v_jk) / (max √(0 + Σ_k u_jk²) ε · max √(0 + Σ_k v_jk²) ε)) 0, 0))
  over the rank-1 index set of the 1 600 000 edges, with u, v the two gathered feature arrays and the mask a
  one-bit array; these three stay opaque throughout. Three general facts carry the proof: a sum over a rank-1
  index set is the sum over its coordinate; a select against zero on one bit is the product with that bit read
  as 0 or 1 (on the extended reals x · 0 = 0 and x · 1 = x for every x, so no finiteness is needed); and the
  product with the weight 100 commutes.
-/
import proofs.«111179_j75935021793522_1_alg».proof.Proof.Gen.ReferenceIdeal.Read
import proofs.«111179_j75935021793522_1_alg».proof.Proof.Spec
import Idealize.ShloMosaic.Lib.ValueIdx
import Idealize.ShloMosaic.PureOps.Ideal.Laws
import Idealize.ShloMosaic.Lib.Pipeline.Value

noncomputable section

namespace Cert.HomoLoss.Ref

open Idealize.ShloMosaic Idealize.ShloMosaic.ValueIdx Cert.ReferenceIdeal Cert.ReferenceIdeal.Read

/-! ## Three general facts -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A select against zero on a one-bit condition is the product with the bit read as 0 or 1: on the extended
    reals `x * 0 = 0` and `x * 1 = x` for every `x`, the infinities included. -/
theorem select_bit (b : BitVec 1) (x : EReal) : Scalar.select b x 0 = x * Cert.HomoLoss.bitW b := by
  rcases BitVec.eq_zero_or_eq_one b with h | h
  · subst h
    rw [select_zero]
    simp [Cert.HomoLoss.bitW]
  · subst h
    rw [select_one]
    simp [Cert.HomoLoss.bitW]

/-! ## The index a row sum reads is the pair (edge, lane) -/

theorem idx_v71 (e : Fin 1600000) (k : Fin 128) : idx_main_v71 (ix1 e) k = ix2 e k :=
  funext fun a => Fin.ext (by match a with | ⟨0, _⟩ => rfl | ⟨1, _⟩ => rfl)

theorem idx_call0_v1 (e : Fin 1600000) (k : Fin 128) : idx_main_call0_v1 (ix1 e) k = ix2 e k :=
  funext fun a => Fin.ext (by match a with | ⟨0, _⟩ => rfl | ⟨1, _⟩ => rfl)

theorem idx_call1_v1 (e : Fin 1600000) (k : Fin 128) : idx_main_call1_v1 (ix1 e) k = ix2 e k :=
  funext fun a => Fin.ext (by match a with | ⟨0, _⟩ => rfl | ⟨1, _⟩ => rfl)

variable (x0 : (⟨S2x1600000, .i32⟩ : BufTy).Contents (Elt Ideal)) (x1 : (⟨S1600000, .f32⟩ : BufTy).Contents (Elt Ideal))
  (x2 : (⟨S50000x128, .f32⟩ : BufTy).Contents (Elt Ideal)) (x3 : (⟨S5000, .i32⟩ : BufTy).Contents (Elt Ideal))
  (x4 : (⟨S500, .i32⟩ : BufTy).Contents (Elt Ideal))

/-! ## The three products under the row sums, at one edge and one lane -/

/-- The summand of the dot product: u_ek · v_ek. -/
theorem prod_uv (e : Fin 1600000) (k : Fin 128) :
    val_main_v70 (F := Ideal) x0 x2 (idx_main_v71 (ix1 e) k)
      = val_main_v62 (F := Ideal) x0 x2 (ix2 e k) * val_main_v69 (F := Ideal) x0 x2 (ix2 e k) := by
  rw [idx_v71 e k, val_main_v70_apply]
  generalize val_main_v62 (F := Ideal) x0 x2 = y62
  generalize val_main_v69 (F := Ideal) x0 x2 = y69
  rfl

/-- The summand of the first squared norm: u_ek · u_ek. -/
theorem prod_uu (e : Fin 1600000) (k : Fin 128) :
    val_main_call0_v0 (F := Ideal) x0 x2 (idx_main_call0_v1 (ix1 e) k)
      = val_main_v62 (F := Ideal) x0 x2 (ix2 e k) * val_main_v62 (F := Ideal) x0 x2 (ix2 e k) := by
  rw [idx_call0_v1 e k, val_main_call0_v0_apply]
  generalize val_main_v62 (F := Ideal) x0 x2 = y62
  rfl

/-- The summand of the second squared norm: v_ek · v_ek. -/
theorem prod_vv (e : Fin 1600000) (k : Fin 128) :
    val_main_call1_v0 (F := Ideal) x0 x2 (idx_main_call1_v1 (ix1 e) k)
      = val_main_v69 (F := Ideal) x0 x2 (ix2 e k) * val_main_v69 (F := Ideal) x0 x2 (ix2 e k) := by
  rw [idx_call1_v1 e k, val_main_call1_v0_apply]
  generalize val_main_v69 (F := Ideal) x0 x2 = y69
  rfl

/-! ## One edge: the masked value is the hinge times the mask bit -/

/-- At the edge `e` the masked elementwise value is `hinge(u_e, v_e) · w_e`: the three row sums start from the zero
    word, which is `0`, and the select against the zero word is the product with the bit. -/
theorem v84_edge (e : Fin 1600000) :
    val_main_v84 (F := Ideal) x0 x1 x2 x3 x4 (ix1 e)
      = Cert.HomoLoss.hinge (fun d => val_main_v62 (F := Ideal) x0 x2 (ix2 e d))
          (fun d => val_main_v69 (F := Ideal) x0 x2 (ix2 e d))
        * Cert.HomoLoss.bitW (val_main_v55 (F := Ideal) x0 x1 x3 x4 (ix1 e)) := by
  rw [val_main_v84_apply]
  generalize val_main_v55 (F := Ideal) x0 x1 x3 x4 = k55
  rw [val_main_call2_v1_apply, val_main_call2_v0_apply, val_main_cst_24_apply]
  rw [val_main_v83_apply, val_main_v82_apply, val_main_cst_23_apply, val_main_v81_apply, val_main_v80_apply,
    val_main_cst_22_apply, val_main_v79_apply, val_main_v78_apply, val_main_v74_apply, val_main_v77_apply,
    val_main_v72_apply, val_main_v75_apply, val_main_v73_apply, val_main_cst_20_apply, val_main_v76_apply,
    val_main_cst_21_apply]
  rw [val_main_call0_v1_apply, val_main_call1_v1_apply, val_main_v71_apply,
    val_main_cst_19_apply, val_main_call0_cst_apply, val_main_call1_cst_apply]
  rw [Finset.sum_congr rfl (fun k _ => prod_uv x0 x2 e k), Finset.sum_congr rfl (fun k _ => prod_uu x0 x2 e k),
    Finset.sum_congr rfl (fun k _ => prod_vv x0 x2 e k)]
  generalize val_main_v62 (F := Ideal) x0 x2 = y62
  generalize val_main_v69 (F := Ideal) x0 x2 = y69
  simp only [Ideal.mulf_def, Ideal.subf_def, Ideal.maximumf_def, Ideal.hostDivf_def, Ideal.hostUnary_sqrt_def,
    Ideal.ofBits_def]
  rw [Ideal.ofBits_zero_f32, zero_add, zero_add, zero_add, select_bit]
  unfold Cert.HomoLoss.hinge
  rw [Cert.HomoLoss.zero_eq]

/-! ## The whole reference -/

open Idealize.ShloMosaic Idealize.ShloMosaic.ValueIdx Cert.ReferenceIdeal Cert.ReferenceIdeal.Read in
theorem ref_loss (x0 : (⟨S2x1600000, .i32⟩ : BufTy).Contents (Elt Ideal)) (x1 : (⟨S1600000, .f32⟩ : BufTy).Contents (Elt Ideal))
    (x2 : (⟨S50000x128, .f32⟩ : BufTy).Contents (Elt Ideal)) (x3 : (⟨S5000, .i32⟩ : BufTy).Contents (Elt Ideal))
    (x4 : (⟨S500, .i32⟩ : BufTy).Contents (Elt Ideal)) (i : S_.Idx) :
    val_main_v86 (F := Ideal) x0 x1 x2 x3 x4 i
      = Cert.HomoLoss.loss (fun e d => val_main_v62 (F := Ideal) x0 x2 (ix2 e d))
          (fun e d => val_main_v69 (F := Ideal) x0 x2 (ix2 e d))
          (fun e => Cert.HomoLoss.bitW (val_main_v55 (F := Ideal) x0 x1 x3 x4 (ix1 e))) := by
  rw [val_main_v86_apply, val_main_cst_26_apply, val_main_v85_apply, val_main_cst_25_apply]
  rw [sum_idx1, Finset.sum_congr rfl (fun e _ => v84_edge x0 x1 x2 x3 x4 e)]
  generalize val_main_v62 (F := Ideal) x0 x2 = y62
  generalize val_main_v69 (F := Ideal) x0 x2 = y69
  generalize val_main_v55 (F := Ideal) x0 x1 x3 x4 = k55
  simp only [Ideal.mulf_def, Ideal.ofBits_def]
  rw [Ideal.ofBits_zero_f32, zero_add]
  exact mul_comm _ _

end Cert.HomoLoss.Ref

end
-- ==== Proof.lean ====
/-
  The certificate of the edge-homophily loss kernel against its jnp reference.

  Both programs prepare the same three arrays from the arguments with the same host operations — the feature rows
  gathered at the edges' two end points and the edge mask — and then compute
      100 · Σ_e max (1/2 − cos(u_e, v_e)) 0 · [mask e],     cos(u, v) = ⟨u,v⟩ / (max ‖u‖ ε · max ‖v‖ ε),
  the reference in one pass over the 1 600 000 edges with a select on the mask, the kernel tile by tile (200 tiles
  of 8000 edges) into a one-entry running sum, multiplying each hinge by the mask bit read as 0 or 1.  On the
  extended reals these are one value: x · 0 = 0 and x · 1 = x hold for every x, and a sum taken tile by tile from
  zero is the whole sum in any commutative monoid; so the precondition (finite inputs) is never opened.

  The three frames: the two kernels' are the generated frame certificates; the reference's is its generated run
  with the result dropped.  The idealization rewrote nothing, so `preserves` is trivial.  `algebraic` puts the
  kernel's run (its result read off the frame run: the last grid step's output cell through the one reshape
  after the region) beside the reference's run (its result term read one operation at a time) at the same value
  `lossOfArgs`.
-/
import proofs.«111179_j75935021793522_1_alg».proof.Defs
import proofs.«111179_j75935021793522_1_alg».proof.Proof.Gen.Kernel
import proofs.«111179_j75935021793522_1_alg».proof.Proof.Gen.Kernel.Skeleton
import proofs.«111179_j75935021793522_1_alg».proof.Proof.Gen.Kernel.Launch
import proofs.«111179_j75935021793522_1_alg».proof.Proof.Gen.Kernel.Points
import proofs.«111179_j75935021793522_1_alg».proof.Proof.Gen.Kernel.Frame
import proofs.«111179_j75935021793522_1_alg».proof.Proof.Gen.KernelIdeal
import proofs.«111179_j75935021793522_1_alg».proof.Proof.Gen.KernelIdeal.Skeleton
import proofs.«111179_j75935021793522_1_alg».proof.Proof.Gen.KernelIdeal.Launch
import proofs.«111179_j75935021793522_1_alg».proof.Proof.Gen.KernelIdeal.Points
import proofs.«111179_j75935021793522_1_alg».proof.Proof.Gen.KernelIdeal.Frame
import proofs.«111179_j75935021793522_1_alg».proof.Proof.Gen.ReferenceIdeal
import proofs.«111179_j75935021793522_1_alg».proof.Proof.Gen.Pre_finite_inputs
import proofs.«111179_j75935021793522_1_alg».proof.Proof.Gen.ReferenceIdeal.Run
import proofs.«111179_j75935021793522_1_alg».proof.Proof.Gen.ReferenceIdeal.Read
import proofs.«111179_j75935021793522_1_alg».proof.Proof.KernelRun
import proofs.«111179_j75935021793522_1_alg».proof.Proof.RefLoss
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the scalar result at the loss of the
    prepared arrays. -/
theorem algebraic : Cert.algebraic_KernelIdeal_ReferenceIdeal := by
  intro m ρ m' ρ' _ hagree
  refine ⟨fun c => (fun _ => Cert.KernelIdeal.KernelRun.lossOfArgs m c), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2.1,
    (hagree c).2.2.2.2]
  funext i
  exact Cert.HomoLoss.Ref.ref_loss _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
